-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x500 : Shape := ⟨2, ![512, 500]⟩
abbrev S500 : Shape := ⟨1, ![500]⟩
abbrev S500x300 : Shape := ⟨2, ![500, 300]⟩
abbrev S300 : Shape := ⟨1, ![300]⟩
abbrev S300x100 : Shape := ⟨2, ![300, 100]⟩
abbrev S100 : Shape := ⟨1, ![100]⟩
abbrev S100x64 : Shape := ⟨2, ![100, 64]⟩
abbrev S64 : Shape := ⟨1, ![64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x500 : S_.BroadcastsInDim S512x500 (![] : Fin 0 → Fin S512x500.rank)
  reducesTo_S512x500_S_d0_1 : S512x500.ReducesTo [0, 1] S_
  bcast_S_S500 : S_.BroadcastsInDim S500 (![] : Fin 0 → Fin S500.rank)
  reducesTo_S500_S_d0 : S500.ReducesTo [0] S_
  bcast_S_S500x300 : S_.BroadcastsInDim S500x300 (![] : Fin 0 → Fin S500x300.rank)
  reducesTo_S500x300_S_d0_1 : S500x300.ReducesTo [0, 1] S_
  bcast_S_S300 : S_.BroadcastsInDim S300 (![] : Fin 0 → Fin S300.rank)
  reducesTo_S300_S_d0 : S300.ReducesTo [0] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S100x64 .f32) (main_arg8 : FVec F S64 .f32) (main_v33 : IVec S_ 1) : IVec S_ 1 :=
  let main_v34 : FVec F S100x64 .f32 := Host.absf main_arg7
  let main_cst_12 : FVec F S_ .f32 := constant S_ .f32 0x7F800000#32
  let main_v35 : FVec F S100x64 .f32 := broadcastInDim S100x64 ![] bcast_S_S100x64 main_cst_12
  let main_v36 : IVec S100x64 1 := cmpf .olt main_v34 main_v35
  let main_c_13 : IVec S_ 1 := constantI S_ 1 1#1
  let main_v37 : IVec S_ 1 := (fun x v => Host.reduce IntOp.andi x v reducesTo_S100x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S300 .f32) (main_arg5 : FVec F S300x100 .f32) (main_arg6 : FVec F S100 .f32) (main_arg7 : FVec F S100x64 .f32) (main_arg8 : FVec F S64 .f32) (main_v13 : IVec S_ 1) (main_v16 : IVec S500x300 1) : IVec S_ 1 :=
  let main_c_5 : IVec S_ 1 := constantI S_ 1 1#1
  let main_v17 : IVec S_ 1 := (fun x v => Host.reduce IntOp.andi x v reducesTo_S500x300_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x100 .f32 := Host.absf main_arg5
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S512x500 .f32) (main_arg2 : FVec F S500 .f32) (main_arg3 : FVec F S500x300 .f32) (main_arg4 : FVec F S300 .f32) (main_arg5 : FVec F S300x100 .f32) (main_arg6 : FVec F S100 .f32) (main_arg7 : FVec F S100x64 .f32) (main_arg8 : FVec F S64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x500 .f32 := Host.absf main_arg1
  let main_cst_0 : FVec F S_ .f32 := constant S_ .f32 0x7F800000#32
  let main_v5 : FVec F S512x500 .f32 := broadcastInDim S512x500 ![] bcast_S_S512x500 main_cst_0
  let main_v6 : IVec S512x500 1 := cmpf .olt main_v4 main_v5
  let main_c_1 : IVec S_ 1 := constantI S_ 1 1#1
  let main_v7 : IVec S_ 1 := (fun x v => Host.reduce IntOp.andi x v reducesTo_S512x500_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500x300 .f32 := Host.absf main_arg3
  let main_cst_4 : FVec F S_ .f32 := constant S_ .f32 0x7F800000#32
  let main_v15 : FVec F S500x300 .f32 := broadcastInDim S500x300 ![] bcast_S_S500x300 main_cst_4
  let main_v16 : IVec S500x300 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S512x500 : Shape := ⟨2, ![512, 500]⟩
abbrev S500 : Shape := ⟨1, ![500]⟩
abbrev S500x300 : Shape := ⟨2, ![500, 300]⟩
abbrev S300 : Shape := ⟨1, ![300]⟩
abbrev S300x100 : Shape := ⟨2, ![300, 100]⟩
abbrev S100 : Shape := ⟨1, ![100]⟩
abbrev S100x64 : Shape := ⟨2, ![100, 64]⟩
abbrev S64 : Shape := ⟨1, ![64]⟩
abbrev S1x500 : Shape := ⟨2, ![1, 500]⟩
abbrev S1x300 : Shape := ⟨2, ![1, 300]⟩
abbrev S1x100 : Shape := ⟨2, ![1, 100]⟩
abbrev S1x64 : Shape := ⟨2, ![1, 64]⟩
abbrev S65536x64 : Shape := ⟨2, ![65536, 64]⟩
abbrev S4096x512 : Shape := ⟨2, ![4096, 512]⟩
abbrev S4096x64 : Shape := ⟨2, ![4096, 64]⟩
abbrev S4096x500 : Shape := ⟨2, ![4096, 500]⟩
abbrev S4096x300 : Shape := ⟨2, ![4096, 300]⟩
abbrev S4096x100 : Shape := ⟨2, ![4096, 100]⟩
abbrev S4096 : Shape := ⟨1, ![4096]⟩
abbrev S4096x1 : Shape := ⟨2, ![4096, 1]⟩

abbrev nBuf : Space → Nat
  | .hbm => 14
  | .vmem => 12
  | .smem => 0
  | _ => 0

abbrev bufTy : (tb : Table) → Fin (tcTables nBuf tb) → BufTy
  | .hbm, ⟨0, _⟩ => ⟨S65536x512, .f32⟩
  | .hbm, ⟨1, _⟩ => ⟨S512x500, .f32⟩
  | .hbm, ⟨2, _⟩ => ⟨S500, .f32⟩
  | .hbm, ⟨3, _⟩ => ⟨S500x300, .f32⟩
  | .hbm, ⟨4, _⟩ => ⟨S300, .f32⟩
  | .hbm, ⟨5, _⟩ => ⟨S300x100, .f32⟩
  | .hbm, ⟨6, _⟩ => ⟨S100, .f32⟩
  | .hbm, ⟨7, _⟩ => ⟨S100x64, .f32⟩
  | .hbm, ⟨8, _⟩ => ⟨S64, .f32⟩
  | .hbm, ⟨9, _⟩ => ⟨S1x500, .f32⟩
  | .hbm, ⟨10, _⟩ => ⟨S1x300, .f32⟩
  | .hbm, ⟨11, _⟩ => ⟨S1x100, .f32⟩
  | .hbm, ⟨12, _⟩ => ⟨S1x64, .f32⟩
  | .hbm, ⟨13, _⟩ => ⟨S65536x64, .f32⟩
  | .local _ .vmem, ⟨0, _⟩ => ⟨S4096x512, .f32⟩
  | .local _ .vmem, ⟨1, _⟩ => ⟨S4096x512, .f32⟩
  | .local _ .vmem, ⟨2, _⟩ => ⟨S512x500, .f32⟩
  | .local _ .vmem, ⟨3, _⟩ => ⟨S1x500, .f32⟩
  | .local _ .vmem, ⟨4, _⟩ => ⟨S500x300, .f32⟩
  | .local _ .vmem, ⟨5, _⟩ => ⟨S1x300, .f32⟩
  | .local _ .vmem, ⟨6, _⟩ => ⟨S300x100, .f32⟩
  | .local _ .vmem, ⟨7, _⟩ => ⟨S1x100, .f32⟩
  | .local _ .vmem, ⟨8, _⟩ => ⟨S100x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S500_S1x500 : S500.ShapeCasts S1x500
  shapeCasts_S300_S1x300 : S300.ShapeCasts S1x300
  shapeCasts_S100_S1x100 : S100.ShapeCasts S1x100
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x500_S512x500_0_0 : ∀ a, (![0, 0] : Fin 2 → Nat) a + S512x500.size a ≤ S512x500.size a
  h_S512x500 : 0 < S512x500.numel
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S4096x500 : S1x500.Broadcasts S4096x500
  inb_S500x300_S500x300_0_0 : ∀ a, (![0, 0] : Fin 2 → Nat) a + S500x300.size a ≤ S500x300.size a
  h_S500x300 : 0 < S500x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4096x300 : S1x300.Broadcasts S4096x300
  inb_S300x100_S300x100_0_0 : ∀ a, (![0, 0] : Fin 2 → Nat) a + S300x100.size a ≤ S300x100.size a
  h_S300x100 : 0 < S300x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4096x100 : S1x100.Broadcasts S4096x100
  inb_S100x64_S100x64_0_0 : ∀ a, (![0, 0] : Fin 2 → Nat) a + S100x64.size a ≤ S100x64.size a
  h_S100x64 : 0 < S100x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  iota_S4096x64_d1_w32 : S4096x64.Iotas .tc 32 [1]
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  dot_S4096x512_S512x500_S4096x500_1_0_0_1_n_n_wf : DotDims.WF S4096x512 S512x500 S4096x500 [1] [0] [0] [1] [] []
  dot_S4096x500_S500x300_S4096x300_1_0_0_1_n_n_wf : DotDims.WF S4096x500 S500x300 S4096x300 [1] [0] [0] [1] [] []
  dot_S4096x300_S300x100_S4096x100_1_0_0_1_n_n_wf : DotDims.WF S4096x300 S300x100 S4096x100 [1] [0] [0] [1] [] []
  dot_S4096x100_S100x64_S4096x64_1_0_0_1_n_n_wf : DotDims.WF S4096x100 S100x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .f32 = 32 ∨ (Rect.block (s := S512x500) S512x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x300.size a ≤ S500x300.size a
  hwx0_3 : ∀ i : grid0.Coords, EltTy.bits .f32 = 32 ∨ (Rect.block (s := S500x300) S500x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x100.size a ≤ S300x100.size a
  hwx0_5 : ∀ i : grid0.Coords, EltTy.bits .f32 = 32 ∨ (Rect.block (s := S300x100) S300x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x64.size a ≤ S100x64.size a
  hwx0_7 : ∀ i : grid0.Coords, EltTy.bits .f32 = 32 ∨ (Rect.block (s := S100x64) S100x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x64.size a ≤ S65536x64.size a
  hwx0_9 : ∀ i : grid0.Coords, EltTy.bits .f32 = 32 ∨ (Rect.block (s := S65536x64) S4096x64.size (cc0_transform_9 i) (hinb0_9 i)).WholeWords (EltTy.packing .f32)

variable [Facts₀]

def dot_S4096x512_S512x500_S4096x500_1_0_0_1_n_n : DotDims S4096x512 S512x500 S4096x500 where
  lhsContracting := [1]
  rhsContracting := [0]
  lhsNonContracting := [0]
  rhsNonContracting := [1]
  lhsBatch := []
  rhsBatch := []
  wf := dot_S4096x512_S512x500_S4096x500_1_0_0_1_n_n_wf
def dot_S4096x500_S500x300_S4096x300_1_0_0_1_n_n : DotDims S4096x500 S500x300 S4096x300 where
  lhsContracting := [1]
  rhsContracting := [0]
  lhsNonContracting := [0]
  rhsNonContracting := [1]
  lhsBatch := []
  rhsBatch := []
  wf := dot_S4096x500_S500x300_S4096x300_1_0_0_1_n_n_wf
def dot_S4096x300_S300x100_S4096x100_1_0_0_1_n_n : DotDims S4096x300 S300x100 S4096x100 where
  lhsContracting := [1]
  rhsContracting := [0]
  lhsNonContracting := [0]
  rhsNonContracting := [1]
  lhsBatch := []
  rhsBatch := []
  wf := dot_S4096x300_S300x100_S4096x100_1_0_0_1_n_n_wf
def dot_S4096x100_S100x64_S4096x64_1_0_0_1_n_n : DotDims S4096x100 S100x64 S4096x64 where
  lhsContracting := [1]
  rhsContracting := [0]
  lhsNonContracting := [0]
  rhsNonContracting := [1]
  lhsBatch := []
  rhsBatch := []
  wf := dot_S4096x100_S100x64_S4096x64_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S500x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S300x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S100x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S4096x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x500 : Shape := ⟨2, ![512, 500]⟩
abbrev S500 : Shape := ⟨1, ![500]⟩
abbrev S500x300 : Shape := ⟨2, ![500, 300]⟩
abbrev S300 : Shape := ⟨1, ![300]⟩
abbrev S300x100 : Shape := ⟨2, ![300, 100]⟩
abbrev S100 : Shape := ⟨1, ![100]⟩
abbrev S100x64 : Shape := ⟨2, ![100, 64]⟩
abbrev S64 : Shape := ⟨1, ![64]⟩
abbrev S65536x500 : Shape := ⟨2, ![65536, 500]⟩
abbrev S1x500 : Shape := ⟨2, ![1, 500]⟩
abbrev S_ : Shape := ⟨0, ![]⟩
abbrev S65536x300 : Shape := ⟨2, ![65536, 300]⟩
abbrev S1x300 : Shape := ⟨2, ![1, 300]⟩
abbrev S65536x100 : Shape := ⟨2, ![65536, 100]⟩
abbrev S1x100 : Shape := ⟨2, ![1, 100]⟩
abbrev S65536x64 : Shape := ⟨2, ![65536, 64]⟩
abbrev S1x64 : Shape := ⟨2, ![1, 64]⟩
abbrev S65536x63 : Shape := ⟨2, ![65536, 63]⟩
abbrev S65536x1 : Shape := ⟨2, ![65536, 1]⟩
abbrev S65536 : Shape := ⟨1, ![65536]⟩

abbrev nBuf : Space → Nat
  | .hbm => 66
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x500, .f32⟩
  | .hbm, ⟨2, _⟩ => ⟨S500, .f32⟩
  | .hbm, ⟨3, _⟩ => ⟨S500x300, .f32⟩
  | .hbm, ⟨4, _⟩ => ⟨S300, .f32⟩
  | .hbm, ⟨5, _⟩ => ⟨S300x100, .f32⟩
  | .hbm, ⟨6, _⟩ => ⟨S100, .f32⟩
  | .hbm, ⟨7, _⟩ => ⟨S100x64, .f32⟩
  | .hbm, ⟨8, _⟩ => ⟨S64, .f32⟩
  | .hbm, ⟨9, _⟩ => ⟨S65536x500, .f32⟩
  | .hbm, ⟨10, _⟩ => ⟨S1x500, .f32⟩
  | .hbm, ⟨11, _⟩ => ⟨S65536x500, .f32⟩
  | .hbm, ⟨12, _⟩ => ⟨S65536x500, .f32⟩
  | .hbm, ⟨13, _⟩ => ⟨S_, .f32⟩
  | .hbm, ⟨14, _⟩ => ⟨S65536x500, .f32⟩
  | .hbm, ⟨15, _⟩ => ⟨S65536x500, .f32⟩
  | .hbm, ⟨16, _⟩ => ⟨S65536x300, .f32⟩
  | .hbm, ⟨17, _⟩ => ⟨S1x300, .f32⟩
  | .hbm, ⟨18, _⟩ => ⟨S65536x300, .f32⟩
  | .hbm, ⟨19, _⟩ => ⟨S65536x300, .f32⟩
  | .hbm, ⟨20, _⟩ => ⟨S_, .f32⟩
  | .hbm, ⟨21, _⟩ => ⟨S65536x300, .f32⟩
  | .hbm, ⟨22, _⟩ => ⟨S65536x300, .f32⟩
  | .hbm, ⟨23, _⟩ => ⟨S65536x100, .f32⟩
  | .hbm, ⟨24, _⟩ => ⟨S1x100, .f32⟩
  | .hbm, ⟨25, _⟩ => ⟨S65536x100, .f32⟩
  | .hbm, ⟨26, _⟩ => ⟨S65536x100, .f32⟩
  | .hbm, ⟨27, _⟩ => ⟨S_, .f32⟩
  | .hbm, ⟨28, _⟩ => ⟨S65536x100, .f32⟩
  | .hbm, ⟨29, _⟩ => ⟨S65536x100, .f32⟩
  | .hbm, ⟨30, _⟩ => ⟨S65536x64, .f32⟩
  | .hbm, ⟨31, _⟩ => ⟨S1x64, .f32⟩
  | .hbm, ⟨32, _⟩ => ⟨S65536x64, .f32⟩
  | .hbm, ⟨33, _⟩ => ⟨S65536x64, .f32⟩
  | .hbm, ⟨34, _⟩ => ⟨S65536x63, .f32⟩
  | .hbm, ⟨35, _⟩ => ⟨S65536x63, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S_, .f32⟩
  | .hbm, ⟨46, _⟩ => ⟨S65536x63, .f32⟩
  | .hbm, ⟨47, _⟩ => ⟨S65536x63, .i1⟩
  | .hbm, ⟨48, _⟩ => ⟨S_, .f32⟩
  | .hbm, ⟨49, _⟩ => ⟨S_, .f32⟩
  | .hbm, ⟨50, _⟩ => ⟨S65536x63, .f32⟩
  | .hbm, ⟨51, _⟩ => ⟨S65536x63, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .i1⟩
  | .hbm, ⟨58, _⟩ => ⟨S_, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x63, .f32⟩
  | .hbm, ⟨63, _⟩ => ⟨S65536x63, .f32⟩
  | .hbm, ⟨64, _⟩ => ⟨S65536x63, .f32⟩
  | .hbm, ⟨65, _⟩ => ⟨S65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call4_v0 : Ref sig .tc := ⟨.hbm, 59, rfl⟩
abbrev main_call4_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S65536x500_0_1 : S1x500.BroadcastsInDim S65536x500 (![0, 1] : Fin 2 → Fin S65536x500.rank)
  bcast_S_S65536x500 : S_.BroadcastsInDim S65536x500 (![] : Fin 0 → Fin S65536x500.rank)
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  slices_S65536x64_S65536x63_0_0 : S65536x64.Slices ![0, 0] S65536x63
  slices_S65536x64_S65536x1_0_63 : S65536x64.Slices ![0, 63] S65536x1
  bcast_S_S65536x1 : S_.BroadcastsInDim S65536x1 (![] : Fin 0 → Fin S65536x1.rank)
  bcast_S_S65536x63 : S_.BroadcastsInDim S65536x63 (![] : Fin 0 → Fin S65536x63.rank)
  reducesTo_S65536x63_S65536_d1 : S65536x63.ReducesTo [1] S65536
  h_S_ : 0 < S_.numel
  bcast_S65536_S65536x1_0 : S65536.BroadcastsInDim S65536x1 (![0] : Fin 1 → Fin S65536x1.rank)
  bcast_S65536x1_S65536x63_0_1 : S65536x1.BroadcastsInDim S65536x63 (![0, 1] : Fin 2 → Fin S65536x63.rank)
  concatenates_S65536x63_S65536x1_S65536x64_d1 : Shape.Concatenates [S65536x63, S65536x1] S65536x64 1
  dot_S65536x512_S512x500_S65536x500_1_0_0_1_n_n_wf : DotDims.WF S65536x512 S512x500 S65536x500 [1] [0] [0] [1] [] []
  dot_S65536x500_S500x300_S65536x300_1_0_0_1_n_n_wf : DotDims.WF S65536x500 S500x300 S65536x300 [1] [0] [0] [1] [] []
  dot_S65536x300_S300x100_S65536x100_1_0_0_1_n_n_wf : DotDims.WF S65536x300 S300x100 S65536x100 [1] [0] [0] [1] [] []
  dot_S65536x100_S100x64_S65536x64_1_0_0_1_n_n_wf : DotDims.WF S65536x100 S100x64 S65536x64 [1] [0] [0] [1] [] []

variable [Facts₀]

def dot_S65536x512_S512x500_S65536x500_1_0_0_1_n_n : DotDims S65536x512 S512x500 S65536x500 where
  lhsContracting := [1]
  rhsContracting := [0]
  lhsNonContracting := [0]
  rhsNonContracting := [1]
  lhsBatch := []
  rhsBatch := []
  wf := dot_S65536x512_S512x500_S65536x500_1_0_0_1_n_n_wf
def dot_S65536x500_S500x300_S65536x300_1_0_0_1_n_n : DotDims S65536x500 S500x300 S65536x300 where
  lhsContracting := [1]
  rhsContracting := [0]
  lhsNonContracting := [0]
  rhsNonContracting := [1]
  lhsBatch := []
  rhsBatch := []
  wf := dot_S65536x500_S500x300_S65536x300_1_0_0_1_n_n_wf
def dot_S65536x300_S300x100_S65536x100_1_0_0_1_n_n : DotDims S65536x300 S300x100 S65536x100 where
  lhsContracting := [1]
  rhsContracting := [0]
  lhsNonContracting := [0]
  rhsNonContracting := [1]
  lhsBatch := []
  rhsBatch := []
  wf := dot_S65536x300_S300x100_S65536x100_1_0_0_1_n_n_wf
def dot_S65536x100_S100x64_S65536x64_1_0_0_1_n_n : DotDims S65536x100 S100x64 S65536x64 where
  lhsContracting := [1]
  rhsContracting := [0]
  lhsNonContracting := [0]
  rhsNonContracting := [1]
  lhsBatch := []
  rhsBatch := []
  wf := dot_S65536x100_S100x64_S65536x64_1_0_0_1_n_n_wf

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.RowSpec.lean ====
/-
  The network, one batch row at a time, on the extended reals.

  A row x of 512 numbers goes through three layers y ↦ max (y·W + b, 0) of widths 500, 300 and 100, then through a
  last affine layer to 64 numbers v. The output row is: in column 63, the sigmoid of v 63; in a column q < 63,
  t q = tanh (v q) when t q ≤ 0, and t q / d when t q > 0, where d is the sum of the positive t's over the columns
  below 63, replaced by 1 when that sum is 0.
  The zero and the one are kept as the 32-bit words both programs write (they are never evaluated here, except that the
  zero word is the number 0 where a sum needs it).
-/
import Idealize.ShloMosaic.PureOps.Ideal.Laws
import Idealize.ShloMosaic.Lib.ValueIdx

noncomputable section

namespace Cert.Mlp

open Idealize.ShloMosaic Idealize.ShloMosaic.ValueIdx

/-- The float zero, as a word. -/
abbrev zw : EReal := Ideal.ofBits .f32 0x00000000#32
/-- The float one, as a word. -/
abbrev ow : EReal := Ideal.ofBits .f32 0x3F800000#32

/-- Column `j` of `x·W + b`. -/
def affine {K N : ℕ} (x : Fin K → EReal) (W : Fin K → Fin N → EReal) (b : Fin N → EReal) : Fin N → EReal :=
  fun j => (∑ k : Fin K, x k * W k j) + b j

/-- Column `j` of `max (x·W + b, 0)`. -/
def hidden {K N : ℕ} (x : Fin K → EReal) (W : Fin K → Fin N → EReal) (b : Fin N → EReal) : Fin N → EReal :=
  fun j => max (affine x W b j) zw

/-- `t` where `t > 0`, else `0`. -/
def keepPos (t : EReal) : EReal := Scalar.select (Ideal.cmp .ogt t zw) t zw

/-- The sum of the positive `tanh`'s over the columns below 63. -/
def posSum (v : Fin 64 → EReal) : EReal := ∑ k : Fin 63, keepPos (Ideal.tanh (v k.castSucc))

/-- That sum, or 1 where it is 0. -/
def denom (v : Fin 64 → EReal) : EReal := Scalar.select (Ideal.cmp .oeq (posSum v) zw) ow (posSum v)

/-- The output row from the last layer's row `v`. -/
def squash (v : Fin 64 → EReal) (q : Fin 64) : EReal :=
  if q.val = 63 then Ideal.logistic (v q)
  else Scalar.select (Ideal.cmp .ogt (Ideal.tanh (v q)) zw) (Ideal.div (Ideal.tanh (v q)) (denom v)) (Ideal.tanh (v q))

/-- The last layer's row from the input row. -/
def preact (x : Fin 512 → EReal) (W1 : Fin 512 → Fin 500 → EReal) (b1 : Fin 500 → EReal) (W2 : Fin 500 → Fin 300 → EReal)
    (b2 : Fin 300 → EReal) (W3 : Fin 300 → Fin 100 → EReal) (b3 : Fin 100 → EReal) (W4 : Fin 100 → Fin 64 → EReal)
    (b4 : Fin 64 → EReal) : Fin 64 → EReal :=
  affine (hidden (hidden (hidden x W1 b1) W2 b2) W3 b3) W4 b4

/-- The output row from the input row. -/
def rowOut (x : Fin 512 → EReal) (W1 : Fin 512 → Fin 500 → EReal) (b1 : Fin 500 → EReal) (W2 : Fin 500 → Fin 300 → EReal)
    (b2 : Fin 300 → EReal) (W3 : Fin 300 → Fin 100 → EReal) (b3 : Fin 100 → EReal) (W4 : Fin 100 → Fin 64 → EReal)
    (b4 : Fin 64 → EReal) : Fin 64 → EReal :=
  squash (preact x W1 b1 W2 b2 W3 b3 W4 b4)

/-- The whole result: row `i 0` of the output is `rowOut` of row `i 0` of the input. -/
def G (st : (⟨2, ![65536, 512]⟩ : Shape).Idx → EReal) (W1 : (⟨2, ![512, 500]⟩ : Shape).Idx → EReal)
    (b1 : (⟨1, ![500]⟩ : Shape).Idx → EReal) (W2 : (⟨2, ![500, 300]⟩ : Shape).Idx → EReal)
    (b2 : (⟨1, ![300]⟩ : Shape).Idx → EReal) (W3 : (⟨2, ![300, 100]⟩ : Shape).Idx → EReal)
    (b3 : (⟨1, ![100]⟩ : Shape).Idx → EReal) (W4 : (⟨2, ![100, 64]⟩ : Shape).Idx → EReal)
    (b4 : (⟨1, ![64]⟩ : Shape).Idx → EReal) : (⟨2, ![65536, 64]⟩ : Shape).Idx → EReal :=
  fun i => rowOut (fun k => st (ix2 (i 0) k)) (fun k j => W1 (ix2 k j)) (fun j => b1 (ix1 j)) (fun k j => W2 (ix2 k j))
    (fun j => b2 (ix1 j)) (fun k j => W3 (ix2 k j)) (fun j => b3 (ix1 j)) (fun k j => W4 (ix2 k j)) (fun j => b4 (ix1 j)) (i 1)

theorem G_apply (st : (⟨2, ![65536, 512]⟩ : Shape).Idx → EReal) (W1 : (⟨2, ![512, 500]⟩ : Shape).Idx → EReal)
    (b1 : (⟨1, ![500]⟩ : Shape).Idx → EReal) (W2 : (⟨2, ![500, 300]⟩ : Shape).Idx → EReal)
    (b2 : (⟨1, ![300]⟩ : Shape).Idx → EReal) (W3 : (⟨2, ![300, 100]⟩ : Shape).Idx → EReal)
    (b3 : (⟨1, ![100]⟩ : Shape).Idx → EReal) (W4 : (⟨2, ![100, 64]⟩ : Shape).Idx → EReal)
    (b4 : (⟨1, ![64]⟩ : Shape).Idx → EReal) (r : Fin 65536) (q : Fin 64) :
    G st W1 b1 W2 b2 W3 b3 W4 b4 (ix2 r q)
      = rowOut (fun k => st (ix2 r k)) (fun k j => W1 (ix2 k j)) (fun j => b1 (ix1 j)) (fun k j => W2 (ix2 k j))
          (fun j => b2 (ix1 j)) (fun k j => W3 (ix2 k j)) (fun j => b3 (ix1 j)) (fun k j => W4 (ix2 k j)) (fun j => b4 (ix1 j)) q := rfl

end Cert.Mlp

end
-- ==== Proof.KernelLayers.lean ====
/-
  The kernel's layer operations read at an index, at the ideal values, for any extents M, K, N.
  * A product of an [M, K] block by a [K, N] matrix into a zero accumulator, plus a [1, N] row repeated down the M rows,
    is at (a, j) column j of x·W + b for the row x = row a of the block (a change of float format is the identity).
  * Its maximum with the zero splat is column j of max (x·W + b, 0).
-/
import Idealize.ShloMosaic.Lib.ValueLayout
import Idealize.ShloMosaic.Lib.Pipeline.Value
import proofs.«169704_j33698313404514_2_alg».proof.Proof.LibPlainDot
import proofs.«169704_j33698313404514_2_alg».proof.Proof.RowSpec

noncomputable section

namespace Cert.Mlp

open Idealize.ShloMosaic Idealize.ShloMosaic.ValueIdx

variable {M K N : ℕ}

/-- The product alone, at (a, j): the sum over k of (row a)(k) · W(k, j). -/
theorem kMat_apply (d : DotDims ⟨2, ![M, K]⟩ ⟨2, ![K, N]⟩ ⟨2, ![M, N]⟩) (hd : d = DotDims.plain M K N)
    (l : FVec Ideal ⟨2, ![M, K]⟩ .bf16) (w : FVec Ideal ⟨2, ![K, N]⟩ .bf16) (a : Fin M) (j : Fin N) :
    matmul (F := Ideal) d none l w (constant ⟨2, ![M, N]⟩ .f32 0x00000000#32) (ix2 a j)
      = ∑ k : Fin K, l (ix2 a k) * w (ix2 k j) := by
  subst hd
  exact LibPlainDot.matmul_plain M K N none l w (ix2 a j)

/-- Product plus the repeated bias row, at (a, j). -/
theorem kAffine_apply (d : DotDims ⟨2, ![M, K]⟩ ⟨2, ![K, N]⟩ ⟨2, ![M, N]⟩) (hd : d = DotDims.plain M K N)
    (l : FVec Ideal ⟨2, ![M, K]⟩ .bf16) (w : FVec Ideal ⟨2, ![K, N]⟩ .bf16) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (a : Fin M) (j : Fin N) :
    addf (matmul (F := Ideal) d none l w (constant ⟨2, ![M, N]⟩ .f32 0x00000000#32))
        (broadcastTo ⟨2, ![M, N]⟩ (shapeCast ⟨2, ![1, N]⟩ b hc) hb) (ix2 a j)
      = affine (fun k => l (ix2 a k)) (fun k j => w (ix2 k j)) (fun j => b (ix2 (0 : Fin 1) j)) j := by
  rw [addf_apply, kMat_apply d hd, broadcastTo_1b_ab_apply, shapeCast_self]
  rfl

/-- The layer with its rectifier, at (a, j), seen through the change of format that follows it. -/
theorem kHidden_apply (d : DotDims ⟨2, ![M, K]⟩ ⟨2, ![K, N]⟩ ⟨2, ![M, N]⟩) (hd : d = DotDims.plain M K N)
    (l : FVec Ideal ⟨2, ![M, K]⟩ .bf16) (w : FVec Ideal ⟨2, ![K, N]⟩ .bf16) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (ht : FTy.bits .bf16 < FTy.bits .f32) (a : Fin M) (j : Fin N) :
    (truncf .bf16 (maximumf (addf (matmul (F := Ideal) d none l w (constant ⟨2, ![M, N]⟩ .f32 0x00000000#32))
        (broadcastTo ⟨2, ![M, N]⟩ (shapeCast ⟨2, ![1, N]⟩ b hc) hb)) (broadcast ⟨2, ![M, N]⟩ (Scalar.ofBits .f32 0x00000000#32))) ht
          : FVec Ideal ⟨2, ![M, N]⟩ .bf16) (ix2 a j)
      = hidden (fun k => l (ix2 a k)) (fun k j => w (ix2 k j)) (fun j => b (ix2 (0 : Fin 1) j)) j := by
  rw [truncf_apply, maximumf_apply, kAffine_apply d hd]
  rfl

end Cert.Mlp

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.KernelPayload.lean ====
/-
  What one grid point's body stores, read at an index of the [4096, 64] output block, at the ideal values.
  * The four products with their biases and rectifiers: at (p, q) the block of the last product is the sum over
    k < 100 of (the third hidden layer of row p of the input block)(k) · W4(k, q).
  * The epilogue: the column number is compared with 63 on 32-bit words, so the mask "column below 63" removes exactly
    the last term of the 64-lane sum, and that term's replacement is the zero word: the 64-lane sum is the sum over the
    63 columns below 63. Column 63 takes the sigmoid, the others tanh or tanh over the divisor.
  * Both together: the stored block at (p, q) is the result `G` at (r, q) whenever the input block's row p is row r of
    the input array and the weight and bias blocks are the weight and bias arrays.
-/
import proofs.«169704_j33698313404514_2_alg».proof.Proof.Gen.KernelIdeal.Skeleton
import proofs.«169704_j33698313404514_2_alg».proof.Proof.KernelLayers
import proofs.«169704_j33698313404514_2_alg».proof.Proof.LibColumn
import proofs.«169704_j33698313404514_2_alg».proof.Proof.LibRowReduce

noncomputable section

namespace Cert.KernelIdeal.Pay

open Cert.KernelIdeal Cert.KernelIdeal.Gen Idealize.ShloMosaic Idealize.ShloMosaic.ValueIdx Cert.Mlp

/-- The last product's block at (p, q): the sum over k < 100 of the third hidden layer of row p, at k, times W4 (k, q). -/
theorem pay2_apply (x0 : Vec Ideal S4096x512 .f32) (x1 : Vec Ideal S512x500 .f32) (x2 : Vec Ideal S1x500 .f32)
    (x3 : Vec Ideal S500x300 .f32) (x4 : Vec Ideal S1x300 .f32) (x5 : Vec Ideal S300x100 .f32) (x6 : Vec Ideal S1x100 .f32)
    (x7 : Vec Ideal S100x64 .f32) (p : Fin 4096) (q : Fin 64) :
    k0_pay2 (F := Ideal) x0 x1 x2 x3 x4 x5 x6 x7 (ix2 p q)
      = ∑ k : Fin 100, hidden (hidden (hidden (fun k => x0 (ix2 p k)) (fun k j => x1 (ix2 k j)) (fun j => x2 (ix2 (0 : Fin 1) j)))
          (fun k j => x3 (ix2 k j)) (fun j => x4 (ix2 (0 : Fin 1) j))) (fun k j => x5 (ix2 k j)) (fun j => x6 (ix2 (0 : Fin 1) j)) k
          * x7 (ix2 k q) := by
  unfold k0_pay2
  refine (kMat_apply dot_S4096x100_S100x64_S4096x64_1_0_0_1_n_n rfl _ _ p q).trans ?_
  simp only [kHidden_apply dot_S4096x300_S300x100_S4096x100_1_0_0_1_n_n rfl,
    kHidden_apply dot_S4096x500_S500x300_S4096x300_1_0_0_1_n_n rfl,
    kHidden_apply dot_S4096x512_S512x500_S4096x500_1_0_0_1_n_n rfl, truncf_apply]

/-- The column number 63, as the kernel tests it on 32-bit words. -/
theorem gate_eq : ∀ k : Fin 64, IntOp.cmpi .eq (BitVec.ofNat 32 k.val) 63#32 = if k.val = 63 then 1#1 else 0#1 := by decide

/-- Under "column below 63" (the negated mask bit is 1) a condition keeps its value. -/
theorem and_open (c : BitVec 1) : IntOp.andi c (IntOp.xori 0#1 1#1) = c := by revert c; decide
/-- In column 63 (the negated mask bit is 0) every condition is off. -/
theorem and_shut (c : BitVec 1) : IntOp.andi c (IntOp.xori 1#1 1#1) = 0#1 := by revert c; decide

/-- The lane sum of a [4096, 64] block, at row p. -/
theorem rowSum64 (src : FVec Ideal S4096x64 .f32) (hacc : (0x00000000#32 : BitVec 32) = 0x00000000#32) (p : Fin 4096) :
    multiReduction .add [1] S4096 src 0x00000000#32 reduces_S4096x64_S4096 (.inl rfl) hacc (ix1 p) = ∑ k : Fin 64, src (ix2 p k) :=
  LibRowReduce.rowSum_apply src 0x00000000#32 reduces_S4096x64_S4096 (.inl rfl) hacc p

/-- The stored block at (p, q) from the last product's block and the last bias row: `squash` of the row v = product row p
    plus bias, at column q. The 64-lane sum of the masked positive tanh's is the 63-term sum plus the zero word. -/
theorem pay1_apply (v34 : FVec Ideal S4096x64 .f32) (v35 : Vec Ideal S1x64 .f32) (p : Fin 4096) (q : Fin 64) :
    k0_pay1 (F := Ideal) v34 v35 (ix2 p q) = squash (fun k => v34 (ix2 p k) + v35 (ix2 (0 : Fin 1) k)) q := by
  unfold k0_pay1
  dsimp only
  have hV : ∀ k : Fin 64, addf v34 (broadcastTo S4096x64 (shapeCast S1x64 v35 shapeCasts_S1x64_S1x64) broadcasts_S1x64_S4096x64) (ix2 p k)
      = v34 (ix2 p k) + v35 (ix2 (0 : Fin 1) k) := fun k => by
    rw [addf_apply, broadcastTo_1b_ab_apply, shapeCast_self]
  generalize addf v34 (broadcastTo S4096x64 (shapeCast S1x64 v35 shapeCasts_S1x64_S1x64) broadcasts_S1x64_S4096x64) = V at hV ⊢
  have hM : ∀ k : Fin 64, cmpi .eq (iota .tc S4096x64 32 [1] iota_S4096x64_d1_w32) (broadcast S4096x64 63#32) (ix2 p k)
      = if k.val = 63 then 1#1 else 0#1 := fun k => by
    show IntOp.cmpi .eq (iota .tc S4096x64 32 [1] iota_S4096x64_d1_w32 (ix2 p k)) 63#32 = _
    rw [iota_single_apply]; exact gate_eq k
  generalize cmpi .eq (iota .tc S4096x64 32 [1] iota_S4096x64_d1_w32) (broadcast S4096x64 63#32) = Mk at hM ⊢
  have hsel : ∀ k : Fin 64, select (andi (cmpf .ogt (tanh V) (broadcast S4096x64 (FloatOps.ofBits .f32 0#32))) (xori Mk (constantI S4096x64 1 1#1)))
        (tanh V) (broadcast S4096x64 (FloatOps.ofBits .f32 0#32)) (ix2 p k)
      = if k.val = 63 then zw else keepPos (Ideal.tanh (V (ix2 p k))) := fun k => by
    show Scalar.select (IntOp.andi (Ideal.cmp .ogt (Ideal.tanh (V (ix2 p k))) zw) (IntOp.xori (Mk (ix2 p k)) 1#1))
        (Ideal.tanh (V (ix2 p k))) zw = _
    rw [hM k]
    split
    · rw [and_shut, select_zero]
    · rw [and_open]; rfl
  have hsum : (∑ k : Fin 64, select (andi (cmpf .ogt (tanh V) (broadcast S4096x64 (FloatOps.ofBits .f32 0#32))) (xori Mk (constantI S4096x64 1 1#1)))
        (tanh V) (broadcast S4096x64 (FloatOps.ofBits .f32 0#32)) (ix2 p k)) = posSum (fun k => V (ix2 p k)) := by
    simp only [hsel]
    rw [Fin.sum_univ_castSucc, if_pos (by rfl : (Fin.last 63).val = 63), show (zw : EReal) = 0 from Ideal.ofBits_zero_f32, add_zero]
    unfold posSum
    refine Finset.sum_congr rfl fun k _ => ?_
    rw [if_neg (by have := k.isLt; simp only [Fin.val_castSucc]; omega)]
  rw [select_apply, hM q]
  unfold squash
  split
  · rw [select_one]
    show Ideal.logistic (V (ix2 p q)) = _
    rw [hV q]
  · rw [select_zero, select_apply, divf_apply, LibColumn.broadcastTo_a1_ab_apply, select_apply, cmpf_apply,
      LibColumn.shapeCast_a_a1_apply, rowSum64, hsum]
    have hVf : (fun k => V (ix2 p k)) = fun k => v34 (ix2 p k) + v35 (ix2 (0 : Fin 1) k) := funext hV
    rw [hVf]
    show Scalar.select (IntOp.andi (Ideal.cmp .ogt (Ideal.tanh (V (ix2 p q))) zw) (IntOp.xori (Mk (ix2 p q)) 1#1))
        (Ideal.div (Ideal.tanh (V (ix2 p q))) (denom _)) (Ideal.tanh (V (ix2 p q))) = _
    rw [hM q, if_neg ‹_›, and_open, hV q]

/-- The stored block from the loaded blocks, against the whole-array result: row `p` of the block is row `r` of `G`
    when row `p` of the input block is row `r` of the input and the other blocks are the weights and biases. -/
theorem block_row (A0 : S65536x512.Idx → EReal) (W1 : S512x500.Idx → EReal) (b1 : S500.Idx → EReal)
    (W2 : S500x300.Idx → EReal) (b2 : S300.Idx → EReal) (W3 : S300x100.Idx → EReal) (b3 : S100.Idx → EReal)
    (W4 : S100x64.Idx → EReal) (b4 : S64.Idx → EReal)
    (x0 : Vec Ideal S4096x512 .f32) (x1 : Vec Ideal S512x500 .f32) (x2 : Vec Ideal S1x500 .f32)
    (x3 : Vec Ideal S500x300 .f32) (x4 : Vec Ideal S1x300 .f32) (x5 : Vec Ideal S300x100 .f32) (x6 : Vec Ideal S1x100 .f32)
    (x7 : Vec Ideal S100x64 .f32) (x8 : Vec Ideal S1x64 .f32) (r : Fin 65536) (p : Fin 4096)
    (h0 : ∀ k : Fin 512, x0 (ix2 p k) = A0 (ix2 r k))
    (h1 : ∀ (k : Fin 512) (j : Fin 500), x1 (ix2 k j) = W1 (ix2 k j)) (h2 : ∀ j : Fin 500, x2 (ix2 (0 : Fin 1) j) = b1 (ix1 j))
    (h3 : ∀ (k : Fin 500) (j : Fin 300), x3 (ix2 k j) = W2 (ix2 k j)) (h4 : ∀ j : Fin 300, x4 (ix2 (0 : Fin 1) j) = b2 (ix1 j))
    (h5 : ∀ (k : Fin 300) (j : Fin 100), x5 (ix2 k j) = W3 (ix2 k j)) (h6 : ∀ j : Fin 100, x6 (ix2 (0 : Fin 1) j) = b3 (ix1 j))
    (h7 : ∀ (k : Fin 100) (j : Fin 64), x7 (ix2 k j) = W4 (ix2 k j)) (h8 : ∀ j : Fin 64, x8 (ix2 (0 : Fin 1) j) = b4 (ix1 j))
    (q : Fin 64) :
    k0_pay1 (F := Ideal) (k0_pay2 (F := Ideal) x0 x1 x2 x3 x4 x5 x6 x7) x8 (ix2 p q) = G A0 W1 b1 W2 b2 W3 b3 W4 b4 (ix2 r q) := by
  rw [pay1_apply, G_apply]
  unfold rowOut preact
  refine congrArg (fun v => squash v q) (funext fun c => ?_)
  rw [pay2_apply]
  unfold affine
  simp only [h0, h1, h2, h3, h4, h5, h6, h7, h8]

end Cert.KernelIdeal.Pay

end
-- ==== Proof.KernelValue.lean ====
/-
  From blocks to the array. The grid has 16 points; point t stages rows 4096·t … 4096·t + 4095 of the input (all 512
  columns), the whole of each weight matrix, each bias as a one-row matrix (the host reshapes the bias vector before the
  call), and writes back rows 4096·t … 4096·t + 4095 of the result. So what point t writes back is block t of the
  whole-array result `G`, the 16 blocks cover the 65536 rows, and the result array ends holding `G` of the arguments.
-/
import proofs.«169704_j33698313404514_2_alg».proof.Proof.Gen.KernelIdeal.Value
import proofs.«169704_j33698313404514_2_alg».proof.Proof.KernelPayload
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 16 points: the input and the output move down one block of rows per
    point; every other window stays at its one block. -/
theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The whole-array result of the arguments as launched. -/
abbrev result (c : Dev nD) : S65536x64.Idx → EReal :=
  G (m ((c : Thread nD τ).loc main_arg0) : S65536x512.Idx → EReal) (m ((c : Thread nD τ).loc main_arg1) : S512x500.Idx → EReal)
    (m ((c : Thread nD τ).loc main_arg2) : S500.Idx → EReal) (m ((c : Thread nD τ).loc main_arg3) : S500x300.Idx → EReal)
    (m ((c : Thread nD τ).loc main_arg4) : S300.Idx → EReal) (m ((c : Thread nD τ).loc main_arg5) : S300x100.Idx → EReal)
    (m ((c : Thread nD τ).loc main_arg6) : S100.Idx → EReal) (m ((c : Thread nD τ).loc main_arg7) : S100x64.Idx → EReal)
    (m ((c : Thread nD τ).loc main_arg8) : S64.Idx → EReal)

/-- The row of the array that row `p` of point `t`'s block is. -/
abbrev rowOf (t : Fin cfg0.N) (p : Fin 4096) : Fin 65536 :=
  ⟨t.val * 4096 + p.val, by have := t.isLt; have h : cfg0.N = 16 := N_0; have := p.isLt; omega⟩

/-- Row `p` of the input block at point `t`. -/
theorem blk0_apply (c : Dev nD) (t : Fin cfg0.N) (p : Fin 4096) (k : Fin 512) :
    (iblk m c 0 t : Vec Ideal S4096x512 .f32) (ix2 p k)
      = (m ((c : Thread nD τ).loc main_arg0) : S65536x512.Idx → EReal) (ix2 (rowOf t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 512 + 1 * k.val = k.val; rw [e1]; omega

/-- Window 1's one block is the whole of its array. -/
theorem blk1_apply (c : Dev nD) (t : Fin cfg0.N) (k : Fin 512) (j : Fin 500) :
    (iblk m c 1 t : Vec Ideal S512x500 .f32) (ix2 k j) = (m ((c : Thread nD τ).loc main_arg1) : S512x500.Idx → EReal) (ix2 k j) := by
  obtain ⟨a00, a01, o0, o1, w10, w11, w20, w21, w30, w31, w40, w41, w50, w51, w60, w61, w70, w71, w80, w81⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * k.val = k.val; rw [w10]; omega
  | ⟨1, _⟩ => show win0_1.index t (1 : Fin 2) * 500 + 1 * j.val = j.val; rw [w11]; omega

/-- Window 2's block is the bias vector as one row: the host's reshape of the vector, read at (0, j). -/
theorem blk2_apply (c : Dev nD) (t : Fin cfg0.N) (j : Fin 500) :
    (iblk m c 2 t : Vec Ideal S1x500 .f32) (ix2 (0 : Fin 1) j) = (m ((c : Thread nD τ).loc main_arg2) : S500.Idx → EReal) (ix1 j) := by
  obtain ⟨a00, a01, o0, o1, w10, w11, w20, w21, w30, w31, w40, w41, w50, w51, w60, w61, w70, w71, w80, w81⟩ := idx_facts t
  have e : (V m c main_v0 : S1x500.Idx → EReal)
      = shapeCast S1x500 (m ((c : Thread nD τ).loc main_arg2) : S500.Idx → EReal) shapeCasts_S500_S1x500 := by
    dsimp only [Gen.V, Gen.hostOps0]; after_results; rfl
  have hi : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [w20]
    | ⟨1, _⟩ => show win0_2.index t (1 : Fin 2) * 500 + 1 * j.val = j.val; rw [w21]; omega)
  unfold iblk
  rw [View.read_apply]
  show V m c main_v0 _ = _
  rw [hi, e]
  exact shapeCast_a_1a_apply _ _ (0 : Fin 1) j

/-- Window 3's one block is the whole of its array. -/
theorem blk3_apply (c : Dev nD) (t : Fin cfg0.N) (k : Fin 500) (j : Fin 300) :
    (iblk m c 3 t : Vec Ideal S500x300 .f32) (ix2 k j) = (m ((c : Thread nD τ).loc main_arg3) : S500x300.Idx → EReal) (ix2 k j) := by
  obtain ⟨a00, a01, o0, o1, w10, w11, w20, w21, w30, w31, w40, w41, w50, w51, w60, w61, w70, w71, w80, w81⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 500 + 1 * k.val = k.val; rw [w30]; omega
  | ⟨1, _⟩ => show win0_3.index t (1 : Fin 2) * 300 + 1 * j.val = j.val; rw [w31]; omega

/-- Window 4's block is the bias vector as one row: the host's reshape of the vector, read at (0, j). -/
theorem blk4_apply (c : Dev nD) (t : Fin cfg0.N) (j : Fin 300) :
    (iblk m c 4 t : Vec Ideal S1x300 .f32) (ix2 (0 : Fin 1) j) = (m ((c : Thread nD τ).loc main_arg4) : S300.Idx → EReal) (ix1 j) := by
  obtain ⟨a00, a01, o0, o1, w10, w11, w20, w21, w30, w31, w40, w41, w50, w51, w60, w61, w70, w71, w80, w81⟩ := idx_facts t
  have e : (V m c main_v1 : S1x300.Idx → EReal)
      = shapeCast S1x300 (m ((c : Thread nD τ).loc main_arg4) : S300.Idx → EReal) shapeCasts_S300_S1x300 := by
    dsimp only [Gen.V, Gen.hostOps0]; after_results; rfl
  have hi : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [w40]
    | ⟨1, _⟩ => show win0_4.index t (1 : Fin 2) * 300 + 1 * j.val = j.val; rw [w41]; omega)
  unfold iblk
  rw [View.read_apply]
  show V m c main_v1 _ = _
  rw [hi, e]
  exact shapeCast_a_1a_apply _ _ (0 : Fin 1) j

/-- Window 5's one block is the whole of its array. -/
theorem blk5_apply (c : Dev nD) (t : Fin cfg0.N) (k : Fin 300) (j : Fin 100) :
    (iblk m c 5 t : Vec Ideal S300x100 .f32) (ix2 k j) = (m ((c : Thread nD τ).loc main_arg5) : S300x100.Idx → EReal) (ix2 k j) := by
  obtain ⟨a00, a01, o0, o1, w10, w11, w20, w21, w30, w31, w40, w41, w50, w51, w60, w61, w70, w71, w80, w81⟩ := idx_facts t
  unfold iblk
  rw [View.read_apply]
  show V m c main_arg5 _ = _
  rw [V_main_arg5]
  refine congrArg _ (funext fun a => Fin.ext ?_)
  match a with
  | ⟨0, _⟩ => show win0_5.index t (0 : Fin 2) * 300 + 1 * k.val = k.val; rw [w50]; omega
  | ⟨1, _⟩ => show win0_5.index t (1 : Fin 2) * 100 + 1 * j.val = j.val; rw [w51]; omega

/-- Window 6's block is the bias vector as one row: the host's reshape of the vector, read at (0, j). -/
theorem blk6_apply (c : Dev nD) (t : Fin cfg0.N) (j : Fin 100) :
    (iblk m c 6 t : Vec Ideal S1x100 .f32) (ix2 (0 : Fin 1) j) = (m ((c : Thread nD τ).loc main_arg6) : S100.Idx → EReal) (ix1 j) := by
  obtain ⟨a00, a01, o0, o1, w10, w11, w20, w21, w30, w31, w40, w41, w50, w51, w60, w61, w70, w71, w80, w81⟩ := idx_facts t
  have e : (V m c main_v2 : S1x100.Idx → EReal)
      = shapeCast S1x100 (m ((c : Thread nD τ).loc main_arg6) : S100.Idx → EReal) shapeCasts_S100_S1x100 := by
    dsimp only [Gen.V, Gen.hostOps0]; after_results; rfl
  have hi : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [w60]
    | ⟨1, _⟩ => show win0_6.index t (1 : Fin 2) * 100 + 1 * j.val = j.val; rw [w61]; omega)
  unfold iblk
  rw [View.read_apply]
  show V m c main_v2 _ = _
  rw [hi, e]
  exact shapeCast_a_1a_apply _ _ (0 : Fin 1) j

/-- Window 7's one block is the whole of its array. -/
theorem blk7_apply (c : Dev nD) (t : Fin cfg0.N) (k : Fin 100) (j : Fin 64) :
    (iblk m c 7 t : Vec Ideal S100x64 .f32) (ix2 k j) = (m ((c : Thread nD τ).loc main_arg7) : S100x64.Idx → EReal) (ix2 k j) := by
  obtain ⟨a00, a01, o0, o1, w10, w11, w20, w21, w30, w31, w40, w41, w50, w51, w60, w61, w70, w71, w80, w81⟩ := idx_facts t
  unfold iblk
  rw [View.read_apply]
  show V m c main_arg7 _ = _
  rw [V_main_arg7]
  refine congrArg _ (funext fun a => Fin.ext ?_)
  match a with
  | ⟨0, _⟩ => show win0_7.index t (0 : Fin 2) * 100 + 1 * k.val = k.val; rw [w70]; omega
  | ⟨1, _⟩ => show win0_7.index t (1 : Fin 2) * 64 + 1 * j.val = j.val; rw [w71]; omega

/-- Window 8's block is the bias vector as one row: the host's reshape of the vector, read at (0, j). -/
theorem blk8_apply (c : Dev nD) (t : Fin cfg0.N) (j : Fin 64) :
    (iblk m c 8 t : Vec Ideal S1x64 .f32) (ix2 (0 : Fin 1) j) = (m ((c : Thread nD τ).loc main_arg8) : S64.Idx → EReal) (ix1 j) := by
  obtain ⟨a00, a01, o0, o1, w10, w11, w20, w21, w30, w31, w40, w41, w50, w51, w60, w61, w70, w71, w80, w81⟩ := idx_facts t
  have e : (V m c main_v3 : S1x64.Idx → EReal)
      = shapeCast S1x64 (m ((c : Thread nD τ).loc main_arg8) : S64.Idx → EReal) shapeCasts_S64_S1x64 := by
    dsimp only [Gen.V, Gen.hostOps0]; after_results; rfl
  have hi : ((cfg0.win 8).blk t).view.emb (ix2 (0 : Fin 1) j) = ix2 (0 : Fin 1) j := funext fun a => Fin.ext (by
    match a with
    | ⟨0, _⟩ => show win0_8.index t (0 : Fin 2) * 1 + 1 * 0 = 0; rw [w80]
    | ⟨1, _⟩ => show win0_8.index t (1 : Fin 2) * 64 + 1 * j.val = j.val; rw [w81]; omega)
  unfold iblk
  rw [View.read_apply]
  show V m c main_v3 _ = _
  rw [hi, e]
  exact shapeCast_a_1a_apply _ _ (0 : Fin 1) j

/-- WHAT POINT `t` WRITES BACK is block `t` of the whole-array result. -/
theorem flushed_eq (c : Dev nD) (t : Fin cfg0.N) :
    (dats m 0 c).flushed 9 t = ((cfg0.win 9).blk t).view.read (Elt Ideal) (result m c) := by
  obtain ⟨a00, a01, o0, o1, -⟩ := idx_facts t
  show (cfg0.win 9).cut (grid0.coords t) ((dats m 0 c).after 9 t) = _
  rw [after0_9]
  unfold out0_9
  rw [View.canon_unit_zero hz]
  simp only [View.ld_unit_zero (S := S4096x512) hz, View.ld_unit_zero (S := S512x500) hz, View.ld_unit_zero (S := S1x500) hz,
    View.ld_unit_zero (S := S500x300) hz, View.ld_unit_zero (S := S1x300) hz, View.ld_unit_zero (S := S300x100) hz,
    View.ld_unit_zero (S := S1x100) hz, View.ld_unit_zero (S := S100x64) hz, View.ld_unit_zero (S := S1x64) hz]
  funext j
  obtain ⟨p, q, rfl⟩ : ∃ (p : Fin 4096) (q : Fin 64), j = ix2 p q := ⟨j 0, j 1, eq_ix2 j⟩
  have hemb : ((cfg0.win 9).blk t).view.emb (ix2 p q) = ix2 (rowOf t p) q := funext fun a => Fin.ext (by
    match a with
    | ⟨0, _⟩ => show win0_9.index t (0 : Fin 2) * 4096 + 1 * p.val = t.val * 4096 + p.val; rw [o0]; omega
    | ⟨1, _⟩ => show win0_9.index t (1 : Fin 2) * 64 + 1 * q.val = q.val; rw [o1]; omega)
  show k0_pay1 (k0_pay2 (iblk m c 0 t) (iblk m c 1 t) (iblk m c 2 t) (iblk m c 3 t) (iblk m c 4 t) (iblk m c 5 t)
      (iblk m c 6 t) (iblk m c 7 t)) (iblk m c 8 t) (ix2 p q) = result m c (((cfg0.win 9).blk t).view.emb (ix2 p q))
  rw [hemb]
  exact Pay.block_row _ _ _ _ _ _ _ _ _ (iblk m c 0 t) (iblk m c 1 t) (iblk m c 2 t) (iblk m c 3 t) (iblk m c 4 t)
    (iblk m c 5 t) (iblk m c 6 t) (iblk m c 7 t) (iblk m c 8 t) (rowOf t p) p
    (blk0_apply m c t p) (blk1_apply m c t) (blk2_apply m c t) (blk3_apply m c t) (blk4_apply m c t) (blk5_apply m c t)
    (blk6_apply m c t) (blk7_apply m c t) (blk8_apply m c t) q

/-- An index of the result array is in point `t`'s block iff each coordinate is in the block's range on its axis. -/
theorem mem_blk (t : Fin cfg0.N) (i : S65536x64.Idx) :
    i ∈ ((cfg0.win 9).blk t).view.set ↔ ∀ a : Fin 2, win0_9.index t a * S4096x64.size a ≤ (i a).val
      ∧ (i a).val < win0_9.index t a * S4096x64.size a + S4096x64.size a := by
  show i ∈ ((View.whole main_v4).slice (win0_9.rect t)).set ↔ _
  rw [View.set_slice_whole, Rect.mem_set_unit]
  exact Iff.rfl

/-- THE ARRAY after the run: row r lies in the block of point r / 4096, so the 16 blocks cover the array and it ends
    holding the whole-array result. -/
theorem final (c : Dev nD) : (dats m 0 c).arrAt 9 cfg0.N = result m c :=
  (dats m 0 c).arrAt_eq_of_cover 9 (result m c) (fun t _ => flushed_eq m c t) fun i => by
    have hN : cfg0.N = 16 := N_0
    have hi0 : (i 0).val < 65536 := (i 0).isLt
    have hi1 : (i 1).val < 64 := (i 1).isLt
    obtain ⟨t, ht⟩ : ∃ t : Fin cfg0.N, t.val = (i 0).val / 4096 := ⟨⟨(i 0).val / 4096, by rw [hN]; omega⟩, rfl⟩
    obtain ⟨a00, a01, o0, o1, -⟩ := idx_facts t
    refine ⟨t, flush0_9 t, ?_⟩
    rw [mem_blk]
    intro a
    match a with
    | ⟨0, _⟩ =>
      show win0_9.index t (0 : Fin 2) * 4096 ≤ (i 0).val ∧ (i 0).val < win0_9.index t (0 : Fin 2) * 4096 + 4096
      rw [o0, ht]; omega
    | ⟨1, _⟩ =>
      show win0_9.index t (1 : Fin 2) * 64 ≤ (i 1).val ∧ (i 1).val < win0_9.index t (1 : Fin 2) * 64 + 64
      rw [o1]; omega

end Cert.KernelIdeal.Whole

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefValue.lean ====
/-
  The reference program, read one batch row at a time: its result at (r, q) is `squash` of the last layer's row
  of batch row r, at column q.
  Each dense layer is a product read as a sum over the contracted index, plus the bias repeated down the rows, and
  a maximum with zero; so row r of a layer's result is `hidden` of row r of the layer's input. The epilogue cuts
  the last layer's [65536, 64] result into columns 0…62 and column 63, computes on the two pieces, and joins them
  again: column 63 is 1 / (1 + exp (-v)), which is the sigmoid, and a column below 63 reads the sum of the positive
  tanh's over the 63 columns of the first piece — the same 63 numbers as in the row form, the sum started from the
  zero word.
-/
import proofs.«169704_j33698313404514_2_alg».proof.Proof.Gen.ReferenceIdeal.Read
import proofs.«169704_j33698313404514_2_alg».proof.Proof.RowSpec
import proofs.«169704_j33698313404514_2_alg».proof.Proof.LibSpellings

noncomputable section

namespace Cert.ReferenceIdeal.RefValue

open Cert.ReferenceIdeal Cert.ReferenceIdeal.Read Idealize.ShloMosaic Idealize.ShloMosaic.ValueIdx Cert.Mlp

variable (x0 : (⟨S65536x512, .f32⟩ : BufTy).Contents (Elt Ideal)) (x1 : (⟨S512x500, .f32⟩ : BufTy).Contents (Elt Ideal))
  (x2 : (⟨S500, .f32⟩ : BufTy).Contents (Elt Ideal)) (x3 : (⟨S500x300, .f32⟩ : BufTy).Contents (Elt Ideal))
  (x4 : (⟨S300, .f32⟩ : BufTy).Contents (Elt Ideal)) (x5 : (⟨S300x100, .f32⟩ : BufTy).Contents (Elt Ideal))
  (x6 : (⟨S100, .f32⟩ : BufTy).Contents (Elt Ideal)) (x7 : (⟨S100x64, .f32⟩ : BufTy).Contents (Elt Ideal))
  (x8 : (⟨S64, .f32⟩ : BufTy).Contents (Elt Ideal))

/-- Row `r` of the first hidden layer. -/
abbrev r1 (r : Fin 65536) : Fin 500 → EReal :=
  hidden (fun k => x0 (ix2 r k)) (fun k j => x1 (ix2 k j)) (fun j => x2 (ix1 j))
/-- Row `r` of the second hidden layer. -/
abbrev r2 (r : Fin 65536) : Fin 300 → EReal :=
  hidden (r1 x0 x1 x2 r) (fun k j => x3 (ix2 k j)) (fun j => x4 (ix1 j))
/-- Row `r` of the third hidden layer. -/
abbrev r3 (r : Fin 65536) : Fin 100 → EReal :=
  hidden (r2 x0 x1 x2 x3 x4 r) (fun k j => x5 (ix2 k j)) (fun j => x6 (ix1 j))
/-- Row `r` of the last layer. -/
abbrev pre (r : Fin 65536) : Fin 64 → EReal :=
  affine (r3 x0 x1 x2 x3 x4 x5 x6 r) (fun k j => x7 (ix2 k j)) (fun j => x8 (ix1 j))

theorem h1_apply (r : Fin 65536) (j : Fin 500) :
    val_main_v4 (F := Ideal) x0 x1 x2 (ix2 r j) = r1 x0 x1 x2 r j := by
  rw [val_main_v4_apply, val_main_v3_apply, val_main_v0_apply, val_main_v2_apply, val_main_v1_apply,
    val_main_call0_v0_apply, val_main_call0_cst_apply]
  have el : ∀ k : Fin 512, lidx_main_v0 (ix2 r j) k = ix2 r k := fun k =>
    funext fun a => Fin.ext (by match a with | ⟨0, _⟩ => rfl | ⟨1, _⟩ => rfl)
  have er : ∀ k : Fin 512, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  simp only [el, er, eb]
  rfl

theorem h2_apply (r : Fin 65536) (j : Fin 300) :
    val_main_v9 (F := Ideal) x0 x1 x2 x3 x4 (ix2 r j) = r2 x0 x1 x2 x3 x4 r j := by
  rw [val_main_v9_apply, val_main_v8_apply, val_main_v5_apply, val_main_v7_apply, val_main_v6_apply,
    val_main_call1_v0_apply, val_main_call1_cst_apply]
  have el : ∀ k : Fin 500, lidx_main_v5 (ix2 r j) k = ix2 r k := fun k =>
    funext fun a => Fin.ext (by match a with | ⟨0, _⟩ => rfl | ⟨1, _⟩ => rfl)
  have er : ∀ k : Fin 500, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  simp only [el, er, eb, h1_apply]
  rfl

theorem h3_apply (r : Fin 65536) (j : Fin 100) :
    val_main_v14 (F := Ideal) x0 x1 x2 x3 x4 x5 x6 (ix2 r j) = r3 x0 x1 x2 x3 x4 x5 x6 r j := by
  rw [val_main_v14_apply, val_main_v13_apply, val_main_v10_apply, val_main_v12_apply, val_main_v11_apply,
    val_main_call2_v0_apply, val_main_call2_cst_apply]
  have el : ∀ k : Fin 300, lidx_main_v10 (ix2 r j) k = ix2 r k := fun k =>
    funext fun a => Fin.ext (by match a with | ⟨0, _⟩ => rfl | ⟨1, _⟩ => rfl)
  have er : ∀ k : Fin 300, ridx_main_v10 (ix2 r j) k = ix2 k j := fun k =>
    funext fun a => Fin.ext (by match a with | ⟨0, _⟩ => rfl | ⟨1, _⟩ => rfl)
  have eb : idx_main_v11 (idx_main_v12 (ix2 r j)) = ix1 j :=
    funext fun a => Fin.ext (by match a with | ⟨0, _⟩ => rfl)
  simp only [el, er, eb, h2_apply]
  rfl

theorem pre_apply (r : Fin 65536) (j : Fin 64) :
    val_main_v18 (F := Ideal) x0 x1 x2 x3 x4 x5 x6 x7 x8 (ix2 r j) = pre x0 x1 x2 x3 x4 x5 x6 x7 x8 r j := by
  rw [val_main_v18_apply, val_main_v15_apply, val_main_v17_apply, val_main_v16_apply]
  have el : ∀ k : Fin 100, lidx_main_v15 (ix2 r j) k = ix2 r k := fun k =>
    funext fun a => Fin.ext (by match a with | ⟨0, _⟩ => rfl | ⟨1, _⟩ => rfl)
  have er : ∀ k : Fin 100, ridx_main_v15 (ix2 r j) k = ix2 k j := fun k =>
    funext fun a => Fin.ext (by match a with | ⟨0, _⟩ => rfl | ⟨1, _⟩ => rfl)
  have eb : idx_main_v16 (idx_main_v17 (ix2 r j)) = ix1 j :=
    funext fun a => Fin.ext (by match a with | ⟨0, _⟩ => rfl)
  simp only [el, er, eb, h3_apply]
  rfl

/-- The tanh of the first piece, at (r, c): the tanh of the last layer's row at column c. -/
theorem tanh_apply (r : Fin 65536) (c : Fin 63) :
    val_main_v20 (F := Ideal) x0 x1 x2 x3 x4 x5 x6 x7 x8 (ix2 r c)
      = Ideal.tanh (pre x0 x1 x2 x3 x4 x5 x6 x7 x8 r c.castSucc) := by
  rw [val_main_v20_apply, val_main_v19_apply]
  have e : idx_main_v19 (ix2 r c) = ix2 r c.castSucc :=
    funext fun a => Fin.ext (by match a with | ⟨0, _⟩ => rfl | ⟨1, _⟩ => rfl)
  rw [e, pre_apply]
  rfl

/-- The positive tanh's of the first piece. -/
theorem pos_apply (r : Fin 65536) (c : Fin 63) :
    val_main_v30 (F := Ideal) x0 x1 x2 x3 x4 x5 x6 x7 x8 (ix2 r c)
      = keepPos (Ideal.tanh (pre x0 x1 x2 x3 x4 x5 x6 x7 x8 r c.castSucc)) := by
  rw [val_main_v30_apply, val_main_v29_apply, tanh_apply, val_main_v28_apply, val_main_cst_1_apply,
    val_main_call3_v1_apply, val_main_call3_v0_apply, val_main_cst_2_apply]
  rfl

/-- Their sum along the row. -/
theorem sum_apply (r : Fin 65536) :
    val_main_v31 (F := Ideal) x0 x1 x2 x3 x4 x5 x6 x7 x8 (ix1 r) = posSum (pre x0 x1 x2 x3 x4 x5 x6 x7 x8 r) := by
  rw [val_main_v31_apply, val_main_cst_3_apply]
  have e : ∀ k : Fin 63, idx_main_v31 (ix1 r) k = ix2 r k := fun k =>
    funext fun a => Fin.ext (by match a with | ⟨0, _⟩ => rfl | ⟨1, _⟩ => rfl)
  simp only [e, pos_apply]
  rw [Ideal.ofBits_def, Ideal.ofBits_zero_f32, zero_add]
  rfl

/-- The divisor of the row. -/
theorem den_apply (r : Fin 65536) :
    val_main_v35 (F := Ideal) x0 x1 x2 x3 x4 x5 x6 x7 x8 (ix2 r (0 : Fin 1)) = denom (pre x0 x1 x2 x3 x4 x5 x6 x7 x8 r) := by
  rw [val_main_v35_apply, val_main_v34_apply, val_main_v32_apply, val_main_v33_apply, val_main_cst_4_apply,
    val_main_call4_v1_apply, val_main_call4_v0_apply, val_main_cst_5_apply]
  have e : idx_main_v32 (ix2 r (0 : Fin 1)) = ix1 r :=
    funext fun a => Fin.ext (by match a with | ⟨0, _⟩ => rfl)
  rw [e, sum_apply]
  rfl

/-- The first piece of the result. -/
theorem rest_apply (r : Fin 65536) (c : Fin 63) :
    val_main_v38 (F := Ideal) x0 x1 x2 x3 x4 x5 x6 x7 x8 (ix2 r c)
      = squash (pre x0 x1 x2 x3 x4 x5 x6 x7 x8 r) c.castSucc := by
  rw [val_main_v38_apply, val_main_v37_apply, val_main_v36_apply, val_main_v29_apply, tanh_apply, val_main_v28_apply,
    val_main_cst_1_apply]
  have e : idx_main_v36 (ix2 r c) = ix2 r (0 : Fin 1) :=
    funext fun a => Fin.ext (by match a with | ⟨0, _⟩ => rfl | ⟨1, _⟩ => rfl)
  rw [e, den_apply]
  unfold squash
  rw [if_neg (by have := c.isLt; simp only [Fin.val_castSucc]; omega)]
  rfl

/-- The second piece: the sigmoid of the last column. -/
theorem gate_apply (r : Fin 65536) :
    val_main_v27 (F := Ideal) x0 x1 x2 x3 x4 x5 x6 x7 x8 (ix2 r (0 : Fin 1))
      = Ideal.logistic (pre x0 x1 x2 x3 x4 x5 x6 x7 x8 r (Fin.last 63)) := by
  rw [val_main_v27_apply, val_main_v26_apply, val_main_cst_0_apply, val_main_v25_apply, val_main_v24_apply,
    val_main_cst_apply, val_main_v23_apply, val_main_v22_apply, val_main_v21_apply]
  have e : idx_main_v21 (ix2 r (0 : Fin 1)) = ix2 r (Fin.last 63) :=
    funext fun a => Fin.ext (by match a with | ⟨0, _⟩ => rfl | ⟨1, _⟩ => rfl)
  rw [e, pre_apply]
  exact LibSpellings.hostQuotient_eq_logistic _

/-- The joined result at (r, q). -/
theorem out_apply (r : Fin 65536) (q : Fin 64) :
    val_main_v39 (F := Ideal) x0 x1 x2 x3 x4 x5 x6 x7 x8 (ix2 r q) = squash (pre x0 x1 x2 x3 x4 x5 x6 x7 x8 r) q := by
  unfold val_main_v39
  by_cases hq : q.val = 63
  · obtain rfl : q = Fin.last 63 := Fin.ext hq
    refine (concatenate_pair_apply_right (t := S65536x64) (s₁ := S65536x63) (s₂ := S65536x1) (1 : Fin 2) _ _ _
      (ix2 r (Fin.last 63)) rfl rfl (ix2 r (0 : Fin 1)) ?_ ?_).trans ?_
    · intro b hb
      match b with
      | ⟨0, _⟩ => rfl
      | ⟨1, _⟩ => exact absurd rfl hb
    · rfl
    · rw [gate_apply]
      unfold squash
      rw [if_pos hq]
  · have hlt : q.val < 63 := by have := q.isLt; omega
    refine (concatenate_pair_apply_left (t := S65536x64) (s₁ := S65536x63) (s₂ := S65536x1) (1 : Fin 2) _ _ _
      (ix2 r q) rfl (ix2 r (⟨q.val, hlt⟩ : Fin 63)) ?_).trans ?_
    · intro b
      match b with
      | ⟨0, _⟩ => rfl
      | ⟨1, _⟩ => rfl
    · rw [rest_apply]
      rfl

/-- The reference's result is `G` of its arguments. -/
theorem result_eq : val_main_v39 (F := Ideal) x0 x1 x2 x3 x4 x5 x6 x7 x8 = G x0 x1 x2 x3 x4 x5 x6 x7 x8 := by
  funext i
  obtain ⟨r, q, rfl⟩ : ∃ (r : Fin 65536) (q : Fin 64), i = ix2 r q := ⟨i 0, i 1, eq_ix2 i⟩
  rw [out_apply]
  rfl

end Cert.ReferenceIdeal.RefValue

end
-- ==== Proof.lean ====
/-
  The claim: a four-layer network with a row-wise squashing epilogue, computed by a kernel over 16 blocks of 4096 batch
  rows, agrees with its plain reference on the extended reals.

  Both programs compute, for every batch row x, three layers y ↦ max (y·W + b, 0) and a last affine layer to a row v of 64
  numbers, then: column 63 is the sigmoid of v 63; a column q < 63 is tanh (v q) where that is ≤ 0 and tanh (v q) / d where
  it is > 0, d the sum of the positive tanh's over the columns below 63, or 1 where that sum is 0.
  The kernel rounds its matrix operands to a shorter float format, which is the identity on the extended reals; it adds
  the biases as one-row matrices; it forms the epilogue over all 64 columns under a mask "column = 63", so its 64-lane sum
  carries one more term, the zero word, than the reference's 63-lane sum; and it writes the sigmoid as one operation
  where the reference writes 1 / (1 + exp (-v)). None of the steps needs the inputs finite: only sums reordered by an
  index change, x + 0 = x and 0 + x = x are used.

  Proof/RowSpec.lean states the result one row at a time (`G`); Proof/KernelLayers.lean and Proof/KernelPayload.lean read
  the kernel body's stored block at an index; Proof/KernelValue.lean takes the blocks to the array (block t is rows
  4096·t … 4096·t + 4095, the 16 blocks cover the array); Proof/RefValue.lean reads the reference's result at an index.
  The three frames are the generated ones (the reference's is its generated run with the result dropped), and the
  idealization rewrote nothing, so `preserves` is trivial.
-/
import proofs.«169704_j33698313404514_2_alg».proof.Defs
import proofs.«169704_j33698313404514_2_alg».proof.Proof.Gen.Kernel
import proofs.«169704_j33698313404514_2_alg».proof.Proof.Gen.Kernel.Frame
import proofs.«169704_j33698313404514_2_alg».proof.Proof.Gen.KernelIdeal
import proofs.«169704_j33698313404514_2_alg».proof.Proof.Gen.KernelIdeal.Frame
import proofs.«169704_j33698313404514_2_alg».proof.Proof.Gen.KernelIdeal.Value
import proofs.«169704_j33698313404514_2_alg».proof.Proof.Gen.ReferenceIdeal
import proofs.«169704_j33698313404514_2_alg».proof.Proof.Gen.ReferenceIdeal.Run
import proofs.«169704_j33698313404514_2_alg».proof.Proof.Gen.ReferenceIdeal.Read
import proofs.«169704_j33698313404514_2_alg».proof.Proof.Gen.Pre_finite_inputs
import proofs.«169704_j33698313404514_2_alg».proof.Proof.KernelValue
import proofs.«169704_j33698313404514_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the arguments: the kernel's by the blocks (Proof/KernelValue.lean),
    the reference's by its result read at an index (Proof/RefValue.lean), the arguments agreeing. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v39_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
